-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x256 .f32) (main_arg1 : IVec S800000 32) (main_arg2 : IVec S800000 32) (main_arg3 : FVec F S256x128 .f32) (main_arg4 : FVec F S128 .f32) (main_arg5 : FVec F S128x32 .f32) (main_arg6 : FVec F S32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S800000x128 : Shape := ⟨2, ![800000, 128]⟩
abbrev S50000x32 : Shape := ⟨2, ![50000, 32]⟩
abbrev S5000x32 : Shape := ⟨2, ![5000, 32]⟩
abbrev S1x128 : Shape := ⟨2, ![1, 128]⟩
abbrev S800000x32 : Shape := ⟨2, ![800000, 32]⟩
abbrev S1x32 : Shape := ⟨2, ![1, 32]⟩
abbrev S5000 : Shape := ⟨1, ![5000]⟩

abbrev nBuf : Space → Nat
  | .hbm => 62
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x32, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x32, .f32⟩
  | .hbm, ⟨57, _⟩ => ⟨S_, .f32⟩
  | .hbm, ⟨58, _⟩ => ⟨S50000x32, .f32⟩
  | .hbm, ⟨59, _⟩ => ⟨S800000x1, .i32⟩
  | .hbm, ⟨60, _⟩ => ⟨S50000x32, .f32⟩
  | .hbm, ⟨61, _⟩ => ⟨S50000x32, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x1, .f32⟩
  | .local _ .vmem, ⟨13, _⟩ => ⟨S5000x1, .f32⟩
  | .local _ .vmem, ⟨14, _⟩ => ⟨S128x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x1, .f32⟩
  | .local _ .vmem, ⟨20, _⟩ => ⟨S5000x1, .f32⟩
  | .local _ .vmem, ⟨21, _⟩ => ⟨S32, .f32⟩
  | .local _ .vmem, ⟨22, _⟩ => ⟨S5000x32, .f32⟩
  | .local _ .vmem, ⟨23, _⟩ => ⟨S5000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  shapeCasts_S5000x32_S5000x32 : S5000x32.ShapeCasts S5000x32
  broadcasts_S5000x1_S5000x32 : S5000x1.Broadcasts S5000x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  reduces_S5000x32_S5000 : S5000x32.Reduces [1] S5000
  shapeCasts_S5000_S5000x1 : S5000.ShapeCasts S5000x1
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x32_S5000x32_1_0_0_1_n_n_wf : DotDims.WF S5000x128 S128x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x32.size a ≤ S128x32.size a
  hwx1_4 : ∀ i : grid1.Coords, EltTy.bits .f32 = 32 ∨ (Rect.block (s := S128x32) S128x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S50000x32.size a
  hwx1_5 : ∀ i : grid1.Coords, EltTy.bits .f32 = 32 ∨ (Rect.block (s := S50000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S800000x128 : Shape := ⟨2, ![800000, 128]⟩
abbrev S1x128 : Shape := ⟨2, ![1, 128]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 119
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x256, .f32⟩
  | .hbm, ⟨30, _⟩ => ⟨S50000x256, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S50000x32, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x32, .f32⟩
  | .hbm, ⟨91, _⟩ => ⟨S_, .f32⟩
  | .hbm, ⟨92, _⟩ => ⟨S50000x32, .f32⟩
  | .hbm, ⟨93, _⟩ => ⟨S800000x1, .i32⟩
  | .hbm, ⟨94, _⟩ => ⟨S50000x32, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000x32, .f32⟩
  | .hbm, ⟨100, _⟩ => ⟨S50000x32, .f32⟩
  | .hbm, ⟨101, _⟩ => ⟨S1x32, .f32⟩
  | .hbm, ⟨102, _⟩ => ⟨S50000x32, .f32⟩
  | .hbm, ⟨103, _⟩ => ⟨S50000x32, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x32, .f32⟩
  | .hbm, ⟨111, _⟩ => ⟨S50000x32, .f32⟩
  | .hbm, ⟨112, _⟩ => ⟨S50000x32, .f32⟩
  | .hbm, ⟨113, _⟩ => ⟨S_, .f32⟩
  | .hbm, ⟨114, _⟩ => ⟨S50000, .f32⟩
  | .hbm, ⟨115, _⟩ => ⟨S50000x1, .f32⟩
  | .hbm, ⟨116, _⟩ => ⟨S50000x1, .f32⟩
  | .hbm, ⟨117, _⟩ => ⟨S50000x32, .f32⟩
  | .hbm, ⟨118, _⟩ => ⟨S50000x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_14 : Ref sig .tc := ⟨.hbm, 82, rfl⟩
abbrev main_v49 : Ref sig .tc := ⟨.hbm, 83, rfl⟩
abbrev main_v50 : Ref sig .tc := ⟨.hbm, 84, rfl⟩
abbrev main_c_15 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_16 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_17 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call5_cst : Ref sig .tc := ⟨.hbm, 104, rfl⟩
abbrev main_call5_v0 : Ref sig .tc := ⟨.hbm, 105, rfl⟩
abbrev main_call5_cst_0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_v6 : Ref sig .tc := ⟨.hbm, 112, rfl⟩
abbrev main_call5_cst_1 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_v67 : Ref sig .tc := ⟨.hbm, 118, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.KernelRun.lean ====
/-
  The idealized kernel's whole run with its result buffer named: the three launches and the host stretches
  between them, from the launch memory to the return, leave the result array at the contents the last launch's
  write-backs leave, and every argument as launched.
-/
import proofs.«157464_j57191784513886_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds what the
    third launch's write-backs leave of it (the last boundary's contents), and the seven arguments are unchanged. -/
theorem run : θ_run defs (onTc (τ := τ) (main (F := F))) ⟨m, fun _ => 0, ρ⟩ (fun r => ∀ c : Dev nD,
      r.2.mem ((c.tc : Thread nD τ).loc main_v37) = V10 m ρ c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v37 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Hand

end
-- ==== Proof.LibTypedRef.lean ====
/-
  A typed reference to a buffer carries a proof that the buffer's type is the value's type, and moves contents
  between the two along it. Moving a value to the buffer's type and back is the identity, and a value moved to the
  buffer's type is (heterogeneously) the value itself: the two facts that let a chain of host operations, written
  through typed references, be read as the plain composition of the operations.
-/
import Idealize.ShloMosaic.Lib.StableHlo

namespace Cert.Lib.TypedRef

open Idealize.ShloMosaic Idealize.ShloMosaic.StableHlo

variable {sig : RefSig} {Val : EltTy → Type} {T : BufTy}

/-- To the buffer's type and back. -/
theorem ofBuf_toBuf_id (x : TRef sig T) (v : T.Contents Val) : x.ofBuf (x.toBuf v) = v := by
  obtain ⟨r, h, h2, h3⟩ := x
  subst h
  rfl

/-- A value at the buffer's type is the value. -/
theorem toBuf_heq (x : TRef sig T) (v w : T.Contents Val) (h : v = w) : HEq (x.toBuf v) w := by
  subst h
  exact cast_heq _ _

end Cert.Lib.TypedRef
-- ==== Proof.LibUnitAxis.lean ====
/-
  Two ways to add a unit axis to a vector are one function.
  A vector [a] laid out as the column [a, 1]: the reshape keeps the row-major order, so entry (p, 0) is entry p of the
  vector; the broadcast along a new trailing axis says the same. Likewise for the row [1, b] and a new leading axis.
-/
import Idealize.ShloMosaic.Lib.Pipeline.Value
import Idealize.ShloMosaic.Lib.ValueIdx

namespace Cert.Lib.UnitAxis

open Idealize.ShloMosaic Idealize.ShloMosaic.ValueIdx

variable {α : Type}

/-- The reshape [a] → [a, 1] is the broadcast of the vector along a new second axis. -/
theorem col_reshape_eq_broadcast {a : ℕ} (x : (⟨1, ![a]⟩ : Shape).Idx → α)
    (h : (⟨1, ![a]⟩ : Shape).ShapeCasts ⟨2, ![a, 1]⟩)
    (bc : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) bc x := by
  funext j
  have hj1 : (j 1).val = 0 := by have := idx2_lt1 j; omega
  have hj0 : (j 0).val < a := idx2_lt0 j
  refine (shapeCast_apply x h j (ix1 ⟨(j 0).val, hj0⟩) ?_).trans
    (broadcastInDim_apply (s := ⟨1, ![a]⟩) (t := ⟨2, ![a, 1]⟩) _ bc x j (ix1 ⟨(j 0).val, hj0⟩) (fun d => ?_)).symm
  · rw [Shape.rowMajor_val_two, Shape.rowMajor_val_one]
    show (j 0).val = (j 0).val * 1 + (j 1).val
    rw [hj1, Nat.mul_one, Nat.add_zero]
  · match d with
    | ⟨0, _⟩ =>
      show (j 0).val = if a = 1 then 0 else (j 0).val
      split_ifs with ha
      · omega
      · rfl

/-- The reshape [b] → [1, b] is the broadcast of the vector along a new first axis. -/
theorem row_reshape_eq_broadcast {b : ℕ} (x : (⟨1, ![b]⟩ : Shape).Idx → α)
    (h : (⟨1, ![b]⟩ : Shape).ShapeCasts ⟨2, ![1, b]⟩)
    (bc : (⟨1, ![b]⟩ : Shape).BroadcastsInDim ⟨2, ![1, b]⟩ (![1] : Fin 1 → Fin 2)) :
    shapeCast ⟨2, ![1, b]⟩ x h = broadcastInDim ⟨2, ![1, b]⟩ (![1] : Fin 1 → Fin 2) bc x := by
  funext j
  have hj0 : (j 0).val = 0 := by have := idx2_lt0 j; omega
  have hj1 : (j 1).val < b := idx2_lt1 j
  refine (shapeCast_apply x h j (ix1 ⟨(j 1).val, hj1⟩) ?_).trans
    (broadcastInDim_apply (s := ⟨1, ![b]⟩) (t := ⟨2, ![1, b]⟩) _ bc x j (ix1 ⟨(j 1).val, hj1⟩) (fun d => ?_)).symm
  · rw [Shape.rowMajor_val_two, Shape.rowMajor_val_one]
    show (j 1).val = (j 0).val * b + (j 1).val
    rw [hj0, Nat.zero_mul, Nat.zero_add]
  · match d with
    | ⟨0, _⟩ =>
      show (j 1).val = if b = 1 then 0 else (j 1).val
      split_ifs with hb
      · omega
      · rfl

end Cert.Lib.UnitAxis
-- ==== Proof.LibCastAway.lean ====
/-
  A value moved along an equation between two types is still that value: it equals, as a member of the second type,
  anything it equals heterogeneously. Where the two types are the same type spelt in two ways, this takes the move away
  by a lemma instead of by reduction, so that an expensive whole-array value under the move is never opened.
-/

namespace Cert.Lib.CastAway

/-- A value moved along an equation of types equals whatever it equals heterogeneously. -/
theorem cast_elim {α β : Type} (h : α = β) (v : α) (w : β) (hvw : HEq v w) : cast h v = w :=
  eq_of_heq ((cast_heq h v).trans hvw)

end Cert.Lib.CastAway
-- ==== Proof.KernelHost.lean ====
/-
  The host stretches of the idealized kernel's program, read back: what each launch finds in the arrays it takes.
  The degree columns are the reference's (the same scatter-add of ones, clip at one and power −1/2; the kernel's
  reshape of a vector to a one-column matrix is the reference's broadcast along a new trailing axis); the arguments
  pass through every stretch and every launch unchanged; and each aggregation (gather the projected rows by source
  node, scatter-add them by destination node) is the reference's aggregation applied to what the launch before it wrote.
-/
import proofs.«157464_j57191784513886_1_alg».proof.Proof.Gen.KernelIdeal.Frame
import proofs.«157464_j57191784513886_1_alg».proof.Proof.RefRead
import proofs.«157464_j57191784513886_1_alg».proof.Proof.LibUnitAxis
import proofs.«157464_j57191784513886_1_alg».proof.Proof.LibTypedRef
import proofs.«157464_j57191784513886_1_alg».proof.Proof.LibCastAway
import Idealize.ShloMosaic.Lib.StableHlo.Run

set_option maxRecDepth 16384

noncomputable section

namespace Cert.KernelIdeal.HandH

open Cert.KernelIdeal Cert.KernelIdeal.Gen
open Idealize.ShloMosaic Idealize.ShloMosaic.TcCoe Idealize.SL.Sem Idealize.ShloMosaic.StableHlo
open Idealize.ShloMosaic.Pipeline (Dat)

/-- A buffer no operation of a stretch writes holds after the stretch what it held before. -/
macro "untouched" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

open Cert.Lib.CastAway (cast_elim)

/-! ## Before the first launch, one stretch at a time -/

/-- After the first stretch: the all-ones update vector, the one, and the source-degree counts. -/
theorem W1_v0 : W1 m ρ c (Proc.devRef .tc main_v0) = Cert.ReferenceIdeal.ReadP.val_main_v0 (F := Ideal) := by
  show StableHlo.after hostOps0 (W0 m ρ c) (Proc.devRef .tc main_v0) = _
  after_results
  rfl
theorem W1_cst_1 : W1 m ρ c (Proc.devRef .tc main_cst_1) = Cert.ReferenceIdeal.ReadP.val_main_cst_1 (F := Ideal) := by
  show StableHlo.after hostOps0 (W0 m ρ c) (Proc.devRef .tc main_cst_1) = _
  after_results
  rfl
theorem W1_v3 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results
  rfl

/-- After the clip: the source-degree counts clipped below at one. -/
theorem W2_v4 : W2 m ρ c (Proc.devRef .tc main_v4) = Cert.ReferenceIdeal.ReadP.val_main_v4 (F := Ideal) (m ((c : Thread nD τ).loc main_arg1)) := by
  show StableHlo.after hostOps0_1 (W1 m ρ c) (Proc.devRef .tc main_v4) = _
  have h1 := W1_cst_1 m ρ c
  have h3 := W1_v3 m ρ c
  generalize W1 m ρ c = Wv at h1 h3 ⊢
  after_results
  rw [h1, h3]
  simp only [Cert.Lib.TypedRef.ofBuf_toBuf_id]
  refine cast_elim _ _ _ (heq_of_eq ?_)
  unfold Cert.ReferenceIdeal.ReadP.val_main_v4
  refine congrArg₂ maximumf ?_ (cast_elim _ _ _ HEq.rfl)
  rfl

theorem W2_v0 : W2 m ρ c (Proc.devRef .tc main_v0) = Cert.ReferenceIdeal.ReadP.val_main_v0 (F := Ideal) :=
  (show W2 m ρ c (Proc.devRef .tc main_v0) = W1 m ρ c (Proc.devRef .tc main_v0) by untouched hostOps0_1).trans (W1_v0 m ρ c)
theorem W2_arg2 : W2 m ρ c (Proc.devRef .tc main_arg2) = m ((c : Thread nD τ).loc main_arg2) :=
  (show W2 m ρ c (Proc.devRef .tc main_arg2) = W1 m ρ c (Proc.devRef .tc main_arg2) by untouched hostOps0_1).trans
    (show W1 m ρ c (Proc.devRef .tc main_arg2) = W0 m ρ c (Proc.devRef .tc main_arg2) by untouched hostOps0)

/-- After the third stretch: the destination-degree counts and the one they are clipped at. -/
theorem W3_cst_3 : W3 m ρ c (Proc.devRef .tc main_cst_3) = Cert.ReferenceIdeal.ReadP.val_main_cst_3 (F := Ideal) := by
  show StableHlo.after hostOps0_2 (W2 m ρ c) (Proc.devRef .tc main_cst_3) = _
  generalize W2 m ρ c = Wv
  after_results
  rfl
theorem W3_v7 : W3 m ρ c (Proc.devRef .tc main_v7) = Cert.ReferenceIdeal.ReadP.val_main_v7 (F := Ideal) (m ((c : Thread nD τ).loc main_arg2)) := by
  show StableHlo.after hostOps0_2 (W2 m ρ c) (Proc.devRef .tc main_v7) = _
  have h0 := W2_v0 m ρ c
  have ha := W2_arg2 m ρ c
  generalize W2 m ρ c = Wv at h0 ha ⊢
  after_results
  rw [h0, ha]
  rfl
theorem W3_v4 : W3 m ρ c (Proc.devRef .tc main_v4) = Cert.ReferenceIdeal.ReadP.val_main_v4 (F := Ideal) (m ((c : Thread nD τ).loc main_arg1)) :=
  (show W3 m ρ c (Proc.devRef .tc main_v4) = W2 m ρ c (Proc.devRef .tc main_v4) by untouched hostOps0_2).trans (W2_v4 m ρ c)

/-- After the second clip: the destination-degree counts clipped below at one. -/
theorem W4_v8 : W4 m ρ c (Proc.devRef .tc main_v8) = Cert.ReferenceIdeal.ReadP.val_main_v8 (F := Ideal) (m ((c : Thread nD τ).loc main_arg2)) := by
  show StableHlo.after hostOps0_3 (W3 m ρ c) (Proc.devRef .tc main_v8) = _
  have h1 := W3_cst_3 m ρ c
  have h3 := W3_v7 m ρ c
  generalize W3 m ρ c = Wv at h1 h3 ⊢
  after_results
  rw [h1, h3]
  simp only [Cert.Lib.TypedRef.ofBuf_toBuf_id]
  refine cast_elim _ _ _ (heq_of_eq ?_)
  unfold Cert.ReferenceIdeal.ReadP.val_main_v8
  refine congrArg₂ maximumf ?_ (cast_elim _ _ _ HEq.rfl)
  rfl
theorem W4_v4 : W4 m ρ c (Proc.devRef .tc main_v4) = Cert.ReferenceIdeal.ReadP.val_main_v4 (F := Ideal) (m ((c : Thread nD τ).loc main_arg1)) :=
  (show W4 m ρ c (Proc.devRef .tc main_v4) = W3 m ρ c (Proc.devRef .tc main_v4) by untouched hostOps0_3).trans (W3_v4 m ρ c)

/-- The source-degree column the first launch finds is the reference's: the power −1/2 of the clipped counts, as a
    one-column matrix (the kernel's reshape is the reference's broadcast along a new trailing axis). -/
theorem V5_v11 : V5 m ρ c main_v11 = Cert.ReferenceIdeal.ReadP.val_main_v11 (F := Ideal) (m ((c : Thread nD τ).loc main_arg1)) := by
  show StableHlo.after hostOps0_4 (W4 m ρ c) (Proc.devRef .tc main_v11) = _
  have h := W4_v4 m ρ c
  generalize W4 m ρ c = Wv at h ⊢
  after_results
  rw [h]
  refine (Cert.Lib.UnitAxis.col_reshape_eq_broadcast _ shapeCasts_S50000_S50000x1 Cert.ReferenceIdeal.Facts₀.bcast_S50000_S50000x1_0).trans ?_
  rfl

/-- The destination-degree column the launches find is the reference's. -/
theorem V5_v14 : V5 m ρ c main_v14 = Cert.ReferenceIdeal.ReadP.val_main_v27 (F := Ideal) (m ((c : Thread nD τ).loc main_arg2)) := by
  show StableHlo.after hostOps0_4 (W4 m ρ c) (Proc.devRef .tc main_v14) = _
  have h := W4_v8 m ρ c
  generalize W4 m ρ c = Wv at h ⊢
  after_results
  rw [h]
  refine (Cert.Lib.UnitAxis.col_reshape_eq_broadcast _ shapeCasts_S50000_S50000x1 Cert.ReferenceIdeal.Facts₀.bcast_S50000_S50000x1_0).trans ?_
  rfl

/-- Before the first launch every argument is as launched. -/
theorem W5_arg (b : Ref sig .tc) (hb : b = main_arg0 ∨ b = main_arg1 ∨ b = main_arg2 ∨ b = main_arg3 ∨ b = main_arg4 ∨ b = main_arg5 ∨ b = main_arg6) :
    W5 m ρ c (Proc.devRef .tc b) = W0 m ρ c (Proc.devRef .tc b) := by
  have h4 : W5 m ρ c (Proc.devRef .tc b) = W4 m ρ c (Proc.devRef .tc b) := by
    rcases hb with rfl | rfl | rfl | rfl | rfl | rfl | rfl <;> untouched hostOps0_4
  have h3 : W4 m ρ c (Proc.devRef .tc b) = W3 m ρ c (Proc.devRef .tc b) := by
    rcases hb with rfl | rfl | rfl | rfl | rfl | rfl | rfl <;> untouched hostOps0_3
  have h2 : W3 m ρ c (Proc.devRef .tc b) = W2 m ρ c (Proc.devRef .tc b) := by
    rcases hb with rfl | rfl | rfl | rfl | rfl | rfl | rfl <;> untouched hostOps0_2
  have h1 : W2 m ρ c (Proc.devRef .tc b) = W1 m ρ c (Proc.devRef .tc b) := by
    rcases hb with rfl | rfl | rfl | rfl | rfl | rfl | rfl <;> untouched hostOps0_1
  have h0 : W1 m ρ c (Proc.devRef .tc b) = W0 m ρ c (Proc.devRef .tc b) := by
    rcases hb with rfl | rfl | rfl | rfl | rfl | rfl | rfl <;> untouched hostOps0
  exact h4.trans (h3.trans (h2.trans (h1.trans h0)))

theorem V5_arg0 : V5 m ρ c main_arg0 = m ((c : Thread nD τ).loc main_arg0) := W5_arg m ρ c main_arg0 (by simp)
theorem V5_arg3 : V5 m ρ c main_arg3 = m ((c : Thread nD τ).loc main_arg3) := W5_arg m ρ c main_arg3 (by simp)

/-! ## Across the first launch and the stretch after it -/

theorem W0_eq (b : Ref sig .tc) : W0 m ρ c (Proc.devRef .tc b) = m ((c : Thread nD τ).loc b) := rfl

/-- The first launch leaves its three input arrays as it found them … -/
theorem W6_arg0 : W6 m ρ c (Proc.devRef .tc main_arg0) = m ((c : Thread nD τ).loc main_arg0) :=
  (W6_arr m ρ c 0).trans ((((dat0 (V5 m ρ) c).arrAt_in 0 rfl _).trans (A_eq0 (V5 m ρ) c 0)).trans (W5_arg m ρ c main_arg0 (by simp)))
theorem W6_v11 : W6 m ρ c (Proc.devRef .tc main_v11) = W5 m ρ c (Proc.devRef .tc main_v11) :=
  (W6_arr m ρ c 1).trans (((dat0 (V5 m ρ) c).arrAt_in 1 rfl _).trans (A_eq0 (V5 m ρ) c 1))
/-- … and every buffer that is none of its arrays. -/
theorem W6_arg1 : W6 m ρ c (Proc.devRef .tc main_arg1) = m ((c : Thread nD τ).loc main_arg1) :=
  (W6_of_ne m ρ c main_arg1 (by decide)).trans (W5_arg m ρ c main_arg1 (by simp))
theorem W6_arg2 : W6 m ρ c (Proc.devRef .tc main_arg2) = m ((c : Thread nD τ).loc main_arg2) :=
  (W6_of_ne m ρ c main_arg2 (by decide)).trans (W5_arg m ρ c main_arg2 (by simp))
theorem W6_arg4 : W6 m ρ c (Proc.devRef .tc main_arg4) = m ((c : Thread nD τ).loc main_arg4) :=
  (W6_of_ne m ρ c main_arg4 (by decide)).trans (W5_arg m ρ c main_arg4 (by simp))
theorem W6_arg5 : W6 m ρ c (Proc.devRef .tc main_arg5) = m ((c : Thread nD τ).loc main_arg5) :=
  (W6_of_ne m ρ c main_arg5 (by decide)).trans (W5_arg m ρ c main_arg5 (by simp))
theorem W6_arg6 : W6 m ρ c (Proc.devRef .tc main_arg6) = m ((c : Thread nD τ).loc main_arg6) :=
  (W6_of_ne m ρ c main_arg6 (by decide)).trans (W5_arg m ρ c main_arg6 (by simp))
theorem W6_v14 : W6 m ρ c (Proc.devRef .tc main_v14) = W5 m ρ c (Proc.devRef .tc main_v14) := W6_of_ne m ρ c main_v14 (by decide)

/-- What the second launch finds besides the aggregated features: the two degree columns, the bias and the weights. -/
theorem V7_v14 : V7 m ρ c main_v14 = Cert.ReferenceIdeal.ReadP.val_main_v27 (F := Ideal) (m ((c : Thread nD τ).loc main_arg2)) :=
  (show W7 m ρ c (Proc.devRef .tc main_v14) = W6 m ρ c (Proc.devRef .tc main_v14) by untouched hostOps1).trans ((W6_v14 m ρ c).trans (V5_v14 m ρ c))
theorem V7_v11 : V7 m ρ c main_v11 = Cert.ReferenceIdeal.ReadP.val_main_v11 (F := Ideal) (m ((c : Thread nD τ).loc main_arg1)) :=
  (show W7 m ρ c (Proc.devRef .tc main_v11) = W6 m ρ c (Proc.devRef .tc main_v11) by untouched hostOps1).trans ((W6_v11 m ρ c).trans (V5_v11 m ρ c))
theorem V7_arg4 : V7 m ρ c main_arg4 = m ((c : Thread nD τ).loc main_arg4) :=
  (show W7 m ρ c (Proc.devRef .tc main_arg4) = W6 m ρ c (Proc.devRef .tc main_arg4) by untouched hostOps1).trans (W6_arg4 m ρ c)
theorem V7_arg5 : V7 m ρ c main_arg5 = m ((c : Thread nD τ).loc main_arg5) :=
  (show W7 m ρ c (Proc.devRef .tc main_arg5) = W6 m ρ c (Proc.devRef .tc main_arg5) by untouched hostOps1).trans (W6_arg5 m ρ c)
theorem W7_arg1 : W7 m ρ c (Proc.devRef .tc main_arg1) = m ((c : Thread nD τ).loc main_arg1) :=
  (show W7 m ρ c (Proc.devRef .tc main_arg1) = W6 m ρ c (Proc.devRef .tc main_arg1) by untouched hostOps1).trans (W6_arg1 m ρ c)
theorem W7_arg2 : W7 m ρ c (Proc.devRef .tc main_arg2) = m ((c : Thread nD τ).loc main_arg2) :=
  (show W7 m ρ c (Proc.devRef .tc main_arg2) = W6 m ρ c (Proc.devRef .tc main_arg2) by untouched hostOps1).trans (W6_arg2 m ρ c)
theorem W7_arg6 : W7 m ρ c (Proc.devRef .tc main_arg6) = m ((c : Thread nD τ).loc main_arg6) :=
  (show W7 m ρ c (Proc.devRef .tc main_arg6) = W6 m ρ c (Proc.devRef .tc main_arg6) by untouched hostOps1).trans (W6_arg6 m ρ c)

set_option maxHeartbeats 2000000 in
/-- The first aggregation: the reference's gather by source node and scatter-add by destination node, of what the
    first launch wrote. -/
theorem V7_v25 (h1 : W6 m ρ c (Proc.devRef .tc main_v15) = Cert.ReferenceIdeal.ReadP.val_main_v14 (F := Ideal) (m ((c : Thread nD τ).loc main_arg0)) (m ((c : Thread nD τ).loc main_arg1)) (m ((c : Thread nD τ).loc main_arg3))) :
    V7 m ρ c main_v25 = Cert.ReferenceIdeal.ReadP.val_main_v24 (F := Ideal) (m ((c : Thread nD τ).loc main_arg0)) (m ((c : Thread nD τ).loc main_arg1)) (m ((c : Thread nD τ).loc main_arg2)) (m ((c : Thread nD τ).loc main_arg3)) := by
  show StableHlo.after hostOps1 (W6 m ρ c) (Proc.devRef .tc main_v25) = _
  have ha1 := W6_arg1 m ρ c
  have ha2 := W6_arg2 m ρ c
  generalize W6 m ρ c = Wv at h1 ha1 ha2 ⊢
  after_results
  rw [ha1, ha2, h1]
  unfold Cert.ReferenceIdeal.ReadP.val_main_v24 Cert.ReferenceIdeal.ReadP.val_main_v23 Cert.ReferenceIdeal.ReadP.val_main_v22 Cert.ReferenceIdeal.ReadP.val_main_cst_6 Cert.ReferenceIdeal.ReadP.val_main_v21 Cert.ReferenceIdeal.ReadP.val_main_v20 Cert.ReferenceIdeal.ReadP.val_main_v19
    Cert.ReferenceIdeal.ReadP.val_main_v18 Cert.ReferenceIdeal.ReadP.val_main_v17 Cert.ReferenceIdeal.ReadP.val_main_c_5 Cert.ReferenceIdeal.ReadP.val_main_v16 Cert.ReferenceIdeal.ReadP.val_main_v15 Cert.ReferenceIdeal.ReadP.val_main_c
  rfl

/-! ## Across the second launch and the stretch after it -/

theorem W8_arg1 : W8 m ρ c (Proc.devRef .tc main_arg1) = m ((c : Thread nD τ).loc main_arg1) :=
  (W8_of_ne m ρ c main_arg1 (by decide)).trans (W7_arg1 m ρ c)
theorem W8_arg2 : W8 m ρ c (Proc.devRef .tc main_arg2) = m ((c : Thread nD τ).loc main_arg2) :=
  (W8_of_ne m ρ c main_arg2 (by decide)).trans (W7_arg2 m ρ c)
theorem W8_arg6 : W8 m ρ c (Proc.devRef .tc main_arg6) = m ((c : Thread nD τ).loc main_arg6) :=
  (W8_of_ne m ρ c main_arg6 (by decide)).trans (W7_arg6 m ρ c)
theorem W8_v14 : W8 m ρ c (Proc.devRef .tc main_v14) = W7 m ρ c (Proc.devRef .tc main_v14) :=
  (W8_arr m ρ c 1).trans (((dat1 (V7 m ρ) c).arrAt_in 1 rfl _).trans (A_eq1 (V7 m ρ) c 1))

/-- What the third launch finds besides the aggregated features: the destination-degree column and the bias. -/
theorem V9_v14 : V9 m ρ c main_v14 = Cert.ReferenceIdeal.ReadP.val_main_v27 (F := Ideal) (m ((c : Thread nD τ).loc main_arg2)) :=
  (show W9 m ρ c (Proc.devRef .tc main_v14) = W8 m ρ c (Proc.devRef .tc main_v14) by untouched hostOps2).trans ((W8_v14 m ρ c).trans (V7_v14 m ρ c))
theorem V9_arg6 : V9 m ρ c main_arg6 = m ((c : Thread nD τ).loc main_arg6) :=
  (show W9 m ρ c (Proc.devRef .tc main_arg6) = W8 m ρ c (Proc.devRef .tc main_arg6) by untouched hostOps2).trans (W8_arg6 m ρ c)

set_option maxHeartbeats 2000000 in
/-- The second aggregation, of what the second launch wrote. -/
theorem V9_v36 (h2 : W8 m ρ c (Proc.devRef .tc main_v26) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    V9 m ρ c main_v36 = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W8 m ρ c) (Proc.devRef .tc main_v36) = _
  have ha1 := W8_arg1 m ρ c
  have ha2 := W8_arg2 m ρ c
  generalize W8 m ρ c = Wv at h2 ha1 ha2 ⊢
  after_results
  rw [ha1, ha2, h2]
  unfold Cert.ReferenceIdeal.ReadP.val_main_v58 Cert.ReferenceIdeal.ReadP.val_main_v57 Cert.ReferenceIdeal.ReadP.val_main_v56 Cert.ReferenceIdeal.ReadP.val_main_cst_16 Cert.ReferenceIdeal.ReadP.val_main_v55 Cert.ReferenceIdeal.ReadP.val_main_v54 Cert.ReferenceIdeal.ReadP.val_main_v53
    Cert.ReferenceIdeal.ReadP.val_main_v52 Cert.ReferenceIdeal.ReadP.val_main_v51 Cert.ReferenceIdeal.ReadP.val_main_c_15 Cert.ReferenceIdeal.ReadP.val_main_v50 Cert.ReferenceIdeal.ReadP.val_main_v49 Cert.ReferenceIdeal.ReadP.val_main_c_14
  rfl

end Cert.KernelIdeal.HandH

end
-- ==== Proof.Spec.lean ====
/-
  The three dense stages of the two-layer graph convolution, each as ONE function of whole arrays read index by
  index over the extended reals (N = 50000 nodes; feature widths 256 → 128 → 32):
    * `proj1 A D W`   — row p, column q: Σ_k (A[p,k] · D[p]) · W[k,q]            (scale the rows, then project);
    * `proj2 M Di B Do W` — Σ_k (max(M[p,k] · Di[p] + B[k], 0) · Do[p]) · W[k,q]  (normalise, bias, rectify, scale, project);
    * `lsm M Di B`     — the log-softmax along a row of h[p,j] = M[p,j] · Di[p] + B[j], taken as
                          (h − m) − log(Σ_j exp(h − m)) with m the row's maximum folded from −∞.
  Both programs are shown to compute exactly these functions of the same aggregated arrays.
-/
import Idealize.ShloMosaic.PureOps.Ideal
import Idealize.ShloMosaic.Lib.ValueIdx

noncomputable section

namespace Cert.Spec

open Idealize.ShloMosaic Idealize.ShloMosaic.ValueIdx

/-- The first projection: the rows of `A` scaled by the column `D`, times `W`. -/
def proj1 (A : (⟨2, ![50000, 256]⟩ : Shape).Idx → EReal) (D : (⟨2, ![50000, 1]⟩ : Shape).Idx → EReal)
    (W : (⟨2, ![256, 128]⟩ : Shape).Idx → EReal) : (⟨2, ![50000, 128]⟩ : Shape).Idx → EReal :=
  fun i => ∑ k : Fin 256, (A (ix2 (n0 := 50000) ⟨(i 0).val, (i 0).isLt⟩ k) * D (ix2 (n0 := 50000) ⟨(i 0).val, (i 0).isLt⟩ (0 : Fin 1)))
    * W (ix2 k (⟨(i 1).val, (i 1).isLt⟩ : Fin 128))

/-- The second projection: the aggregated rows normalised by `Di`, biased by `B`, rectified, scaled by `Do`, times `W`. -/
def proj2 (M : (⟨2, ![50000, 128]⟩ : Shape).Idx → EReal) (Di : (⟨2, ![50000, 1]⟩ : Shape).Idx → EReal)
    (B : (⟨1, ![128]⟩ : Shape).Idx → EReal) (Do : (⟨2, ![50000, 1]⟩ : Shape).Idx → EReal)
    (W : (⟨2, ![128, 32]⟩ : Shape).Idx → EReal) : (⟨2, ![50000, 32]⟩ : Shape).Idx → EReal :=
  fun i => ∑ k : Fin 128,
    (max (M (ix2 (n0 := 50000) ⟨(i 0).val, (i 0).isLt⟩ k) * Di (ix2 (n0 := 50000) ⟨(i 0).val, (i 0).isLt⟩ (0 : Fin 1)) + B (ix1 k))
        (Ideal.ofBits .f32 0x00000000#32)
      * Do (ix2 (n0 := 50000) ⟨(i 0).val, (i 0).isLt⟩ (0 : Fin 1)))
    * W (ix2 k (⟨(i 1).val, (i 1).isLt⟩ : Fin 32))

/-- A row of the last stage before the softmax: the aggregated row normalised by `Di` and biased by `B`. -/
def logit (M : (⟨2, ![50000, 32]⟩ : Shape).Idx → EReal) (Di : (⟨2, ![50000, 1]⟩ : Shape).Idx → EReal)
    (B : (⟨1, ![32]⟩ : Shape).Idx → EReal) (p : Fin 50000) (j : Fin 32) : EReal :=
  M (ix2 p j) * Di (ix2 p (0 : Fin 1)) + B (ix1 j)

/-- A row's maximum, folded from −∞ and once more compared with −∞ (as both programs do). -/
def rowMax (M : (⟨2, ![50000, 32]⟩ : Shape).Idx → EReal) (Di : (⟨2, ![50000, 1]⟩ : Shape).Idx → EReal)
    (B : (⟨1, ![32]⟩ : Shape).Idx → EReal) (p : Fin 50000) : EReal :=
  max (Ideal.ofBits .f32 0xFF800000#32)
    ((Finset.univ : Finset (Fin 32)).fold max (Ideal.ofBits .f32 0xFF800000#32) (fun j => logit M Di B p j))

/-- The last stage: the log-softmax of a row of logits, as (h − m) − log Σ_j exp(h_j − m) with m the row's maximum. -/
def lsm (M : (⟨2, ![50000, 32]⟩ : Shape).Idx → EReal) (Di : (⟨2, ![50000, 1]⟩ : Shape).Idx → EReal)
    (B : (⟨1, ![32]⟩ : Shape).Idx → EReal) : (⟨2, ![50000, 32]⟩ : Shape).Idx → EReal :=
  fun i => (logit M Di B ⟨(i 0).val, (i 0).isLt⟩ ⟨(i 1).val, (i 1).isLt⟩ - rowMax M Di B ⟨(i 0).val, (i 0).isLt⟩)
    - Ideal.log (∑ j : Fin 32, Ideal.exp (logit M Di B ⟨(i 0).val, (i 0).isLt⟩ j - rowMax M Di B ⟨(i 0).val, (i 0).isLt⟩))

end Cert.Spec

end
-- ==== Proof.LibColumn.lean ====
/-
A column read through layout operations.

A column of `a` entries is stored either as a vector of shape `[a]` or as a matrix of shape
`[a, 1]`.  Reshaping between the two keeps entry `p` at row `p` (the only column being
column `0`), and stretching the `[a, 1]` matrix to `[a, b]` repeats entry `p` along row
`p`: the result at `(p, q)` is the column at `(p, 0)`.  The same holds when the stretch or the
added unit axis is written as a broadcast along named axes, and a vector of `b` entries placed
along the second axis of a `[1, b]` matrix keeps entry `q` at `(0, q)`.
-/
import Idealize.ShloMosaic.Lib.ValueLayout
import Idealize.ShloMosaic.Lib.Pipeline.Value
import Idealize.ShloMosaic.Lib.ValueIdx

namespace Cert.LibColumn

open Idealize.ShloMosaic Idealize.ShloMosaic.ValueIdx

variable {α : Type}

/-! ### Reshaping between a vector and a one-column matrix -/

/-- An `[a]` vector reshaped to `[a, 1]` reads, at `(p, u)`, the vector at `p`, whatever the
    unit coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` matrix reshaped to `[a]` reads, at `p`, the matrix at `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-! ### Stretching a one-column matrix along its rows -/

/-- An `[a, 1]` matrix stretched to `[a, b]` reads, at `(p, q)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The same at an index not yet split into coordinates: the result at `j` is the column at
    `(j 0, 0)`. -/
theorem broadcastTo_a1_ab_apply' {a b : ℕ} (v : (⟨2, ![a, 1]⟩ : Shape).Idx → α)
    (h : (⟨2, ![a, 1]⟩ : Shape).Broadcasts ⟨2, ![a, b]⟩) (j : (⟨2, ![a, b]⟩ : Shape).Idx) :
    broadcastTo ⟨2, ![a, b]⟩ v h j = v (ix2 (j 0) (0 : Fin 1)) := by
  obtain ⟨p, q, rfl⟩ : ∃ (p : Fin a) (q : Fin b), j = ix2 p q := ⟨j 0, j 1, eq_ix2 j⟩
  exact broadcastTo_a1_ab_apply v h p q

/-! ### The same operations written as broadcasts along named axes -/

/-- An `[a]` vector broadcast into `[a, 1]` along axis `0` reads, at `(p, u)`, the vector at
    `p`. -/
theorem broadcastInDim_a_a1_apply {a : ℕ}
    (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` matrix broadcast into `[a, b]` along axes `0, 1` reads, at `(p, q)`, the column
    at `(p, 0)`. -/
theorem broadcastInDim_a1_ab_apply {a b : ℕ}
    (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector broadcast into `[1, b]` along axis `1` reads, at `(u, q)`, the vector at
    `q`. -/
theorem broadcastInDim_b_1b_apply {b : ℕ}
    (h : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end Cert.LibColumn
-- ==== Proof.Region0.lean ====
/-
  The first launch (the projection h₁ = (x · d) W, ten row blocks of 5000 rows): the result array after its
  write-backs is `Spec.proj1` of the three arrays the launch finds, whatever those are.
  Block t of the output is written once, from rows 5000 t … 5000 t + 4999 of the left operand and of the scale
  column and from the whole weight matrix; a block's product with the zero accumulator is the plain sum over the
  contracted axis, and the blocks tile the array.
-/
import proofs.«157464_j57191784513886_1_alg».proof.Proof.Gen.KernelIdeal.Frame
import proofs.«157464_j57191784513886_1_alg».proof.Proof.Spec
import proofs.«157464_j57191784513886_1_alg».proof.Proof.LibColumn
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

/-! ## The body's value at an index -/

theorem lhs0_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem rhs0_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- One block's product: row p, column q of the stored value is Σ_k (x[p,k] · d[p]) · w[k,q]. -/
theorem pay0_apply (x0 : Vec Ideal S5000x256 .f32) (x1 : Vec Ideal S5000x1 .f32) (x2 : Vec Ideal S256x128 .f32)
    (p : Fin 5000) (q : Fin 128) :
    k0_pay1 (F := Ideal) x0 x1 x2 (ix2 p q) = ∑ k : Fin 256, (x0 (ix2 p k) * x1 (ix2 p (0 : Fin 1))) * x2 (ix2 k q) := by
  unfold k0_pay1
  refine (Ideal.matmul_constant_zero_apply dot_S5000x256_S256x128_S5000x128_1_0_0_1_n_n none _ _ (ix2 p q)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs0_0 _ _
    | ⟨1, _⟩ => exact (dot_S5000x256_S256x128_S5000x128_1_0_0_1_n_n.lhsIdx_val_of_single rfl _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (dot_S5000x256_S256x128_S5000x128_1_0_0_1_n_n.rhsIdx_val_of_single rfl _ _).trans hk
    | ⟨1, _⟩ => exact rhs0_1 _ _)
  rw [el, er]
  show (x0 (ix2 p k) * (broadcastTo S5000x256 (shapeCast S5000x1 x1 shapeCasts_S5000x1_S5000x1) broadcasts_S5000x1_S5000x256) (ix2 p k)) * x2 (ix2 k q) = _
  rw [Cert.LibColumn.broadcastTo_a1_ab_apply, shapeCast_self]

/-! ## The blocks the launch reads and writes -/

variable (V : (c : Dev nD) → (b : Ref sig .tc) → Buf (Elt Ideal) ((c : Thread nD τ).loc b))

/-- Point t takes row block t of the left operand, of the scale column and of the result, and the whole weight matrix. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p, column k of the left operand's block at point t is row 5000 t + p of the array. -/
theorem blk0_0 (c : Dev nD) (t : Fin cfg0.N) (p : Fin 5000) (k : Fin 256) (i : S50000x256.Idx)
    (h0 : (i 0).val = t.val * 5000 + p.val) (h1 : (i 1).val = k.val) :
    (iblk0 V c 0 t : Vec Ideal S5000x256 .f32) (ix2 p k) = (V c main_arg0 : S50000x256.Idx → EReal) i := by
  obtain ⟨e0, e1, -⟩ := idx_facts0 t
  unfold iblk0
  rw [View.read_apply]
  show V c main_arg0 _ = V c main_arg0 i
  refine congrArg (V c main_arg0) (funext fun a => Fin.ext ?_)
  match a with
  | ⟨0, _⟩ => show win0_0.index t (0 : Fin 2) * 5000 + 1 * p.val = (i 0).val; rw [e0, h0]; omega
  | ⟨1, _⟩ => show win0_0.index t (1 : Fin 2) * 256 + 1 * k.val = (i 1).val; rw [e1, h1]; omega

/-- Row p of the scale column's block at point t is row 5000 t + p of the column. -/
theorem blk0_1 (c : Dev nD) (t : Fin cfg0.N) (p : Fin 5000) (i : S50000x1.Idx)
    (h0 : (i 0).val = t.val * 5000 + p.val) :
    (iblk0 V c 1 t : Vec Ideal S5000x1 .f32) (ix2 p (0 : Fin 1)) = (V c main_v11 : S50000x1.Idx → EReal) i := by
  obtain ⟨-, -, e0, e1, -⟩ := idx_facts0 t
  have hi1 : (i 1).val = 0 := by have h : (i 1).val < 1 := (i 1).isLt; omega
  unfold iblk0
  rw [View.read_apply]
  show V c main_v11 _ = V c main_v11 i
  refine congrArg (V c main_v11) (funext fun a => Fin.ext ?_)
  match a with
  | ⟨0, _⟩ => show win0_1.index t (0 : Fin 2) * 5000 + 1 * p.val = (i 0).val; rw [e0, h0]; omega
  | ⟨1, _⟩ => show win0_1.index t (1 : Fin 2) * 1 + 1 * 0 = (i 1).val; rw [e1, hi1]

/-- The weight matrix's block at every point is the matrix. -/
theorem blk0_2 (c : Dev nD) (t : Fin cfg0.N) (k : Fin 256) (q : Fin 128) :
    (iblk0 V c 2 t : Vec Ideal S256x128 .f32) (ix2 k q) = (V c main_arg3 : S256x128.Idx → EReal) (ix2 k q) := by
  obtain ⟨-, -, -, -, e0, e1, -⟩ := idx_facts0 t
  unfold iblk0
  rw [View.read_apply]
  show V c main_arg3 _ = V c main_arg3 (ix2 k q)
  refine congrArg (V c main_arg3) (funext fun a => Fin.ext ?_)
  match a with
  | ⟨0, _⟩ => show win0_2.index t (0 : Fin 2) * 256 + 1 * k.val = k.val; rw [e0]; omega
  | ⟨1, _⟩ => show win0_2.index t (1 : Fin 2) * 128 + 1 * q.val = q.val; rw [e1]; omega

/-- What point t stores at block coordinate y is the projection at row 5000 t + y₀, column y₁. -/
theorem block0 (c : Dev nD) (t : Fin cfg0.N) (y : S5000x128.Idx) (i : S50000x128.Idx)
    (h0 : (i 0).val = t.val * 5000 + (y 0).val) (h1 : (i 1).val = (y 1).val) :
    k0_pay1 (F := Ideal) (iblk0 V c 0 t) (iblk0 V c 1 t) (iblk0 V c 2 t) y
      = Cert.Spec.proj1 (V c main_arg0) (V c main_v11) (V c main_arg3) i := by
  obtain ⟨p, q, rfl⟩ : ∃ (p : Fin 5000) (q : Fin 128), y = ix2 p q := ⟨y 0, y 1, eq_ix2 y⟩
  refine (pay0_apply (iblk0 V c 0 t) (iblk0 V c 1 t) (iblk0 V c 2 t) p q).trans ?_
  unfold Cert.Spec.proj1
  refine Finset.sum_congr rfl fun k _ => ?_
  have hq : (⟨(i 1).val, (i 1).isLt⟩ : Fin 128) = q := Fin.ext h1
  rw [blk0_0 V c t p k (ix2 (n0 := 50000) ⟨(i 0).val, (i 0).isLt⟩ k) h0 rfl,
    blk0_1 V c t p (ix2 (n0 := 50000) ⟨(i 0).val, (i 0).isLt⟩ (0 : Fin 1)) h0, blk0_2 V c t k q, hq]

/-- What point t writes back is block t of the projection of the arrays the launch finds. -/
theorem flushed0 (c : Dev nD) (t : Fin cfg0.N) :
    (dat0 V c).flushed 3 t = ((cfg0.win 3).blk t).view.read (Elt Ideal)
      (Cert.Spec.proj1 (V c main_arg0) (V c main_v11) (V c main_arg3)) := by
  show (cfg0.win 3).cut (grid0.coords t) ((dat0 V c).after 3 t) = _
  rw [after0_3]
  unfold out0_3
  rw [View.canon_unit_zero hz2]
  simp only [View.ld_unit_zero (S := S5000x256) hz2, View.ld_unit_zero (S := S5000x1) hz2, View.ld_unit_zero (S := S256x128) hz2]
  obtain ⟨-, -, -, -, -, -, e0, e1⟩ := idx_facts0 t
  funext y
  refine block0 V c t y _ ?_ ?_
  · show win0_3.index t (0 : Fin 2) * 5000 + 1 * (y 0).val = t.val * 5000 + (y 0).val; rw [e0]; omega
  · show win0_3.index t (1 : Fin 2) * 128 + 1 * (y 1).val = (y 1).val; rw [e1]; omega

/-- An index of the result array is in point t's block iff its coordinates are in the block's ranges. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Every row of the result lies in the block of the point row / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  obtain ⟨-, -, -, -, -, -, e0, e1⟩ := idx_facts0 ⟨(i 0).val / 5000, by rw [hN]; omega⟩
  rw [mem_blk0]
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e1]; omega

/-- After the launch's write-backs the result array is the projection of the arrays the launch found. -/
theorem final0 (c : Dev nD) :
    (dat0 V c).arrAt 3 cfg0.N = Cert.Spec.proj1 (V c main_arg0) (V c main_v11) (V c main_arg3) :=
  (dat0 V c).arrAt_eq_of_cover 3 _ (fun t _ => flushed0 V c t) cover0

end Cert.KernelIdeal.Hand

end
-- ==== Proof.Region1.lean ====
/-
  The second launch (h₂ = (max(m₁ · d_in + b₁, 0) · d_out) W₂, ten row blocks of 5000 rows): the result array
  after its write-backs is `Spec.proj2` of the five arrays the launch finds, whatever those are.
  Block t of the output comes from rows 5000 t … 5000 t + 4999 of the aggregated features and of the two scale
  columns, and from the whole bias vector and weight matrix.
-/
import proofs.«157464_j57191784513886_1_alg».proof.Proof.Gen.KernelIdeal.Frame
import proofs.«157464_j57191784513886_1_alg».proof.Proof.Spec
import proofs.«157464_j57191784513886_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand1

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-! ## The body's value at an index -/

theorem lhs1_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem rhs1_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- One block's product: row p, column q of the stored value is Σ_k (max(m[p,k] · dᵢ[p] + b[k], 0) · dₒ[p]) · w[k,q]. -/
theorem pay1_apply (x0 : Vec Ideal S5000x128 .f32) (x1 : Vec Ideal S5000x1 .f32) (x2 : Vec Ideal S128 .f32)
    (x3 : Vec Ideal S5000x1 .f32) (x4 : Vec Ideal S128x32 .f32) (p : Fin 5000) (q : Fin 32) :
    k1_pay1 (F := Ideal) x0 x1 x2 x3 x4 (ix2 p q)
      = ∑ k : Fin 128, (max (x0 (ix2 p k) * x1 (ix2 p (0 : Fin 1)) + x2 (ix1 k)) (Ideal.ofBits .f32 0x00000000#32)
          * x3 (ix2 p (0 : Fin 1))) * x4 (ix2 k q) := by
  unfold k1_pay1
  refine (Ideal.matmul_constant_zero_apply dot_S5000x128_S128x32_S5000x32_1_0_0_1_n_n none _ _ (ix2 p q)).trans ?_
  rw [← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx (ix2 p q) ((ValueIdx.contrEquiv1 dot_S5000x128_S128x32_S5000x32_1_0_0_1_n_n 128 rfl rfl).symm k) = ix2 p k := funext fun a => Fin.ext (by
    match a with
    | ⟨0, _⟩ => exact lhs1_0 _ _
    | ⟨1, _⟩ => exact (dot_S5000x128_S128x32_S5000x32_1_0_0_1_n_n.lhsIdx_val_of_single rfl _ _).trans hk)
  have er : dot_S5000x128_S128x32_S5000x32_1_0_0_1_n_n.rhsIdx (ix2 p q) ((ValueIdx.contrEquiv1 dot_S5000x128_S128x32_S5000x32_1_0_0_1_n_n 128 rfl rfl).symm k) = ix2 k q := funext fun a => Fin.ext (by
    match a with
    | ⟨0, _⟩ => exact (dot_S5000x128_S128x32_S5000x32_1_0_0_1_n_n.rhsIdx_val_of_single rfl _ _).trans hk
    | ⟨1, _⟩ => exact rhs1_1 _ _)
  rw [el, er]
  show (max ((shapeCast S5000x128 x0 shapeCasts_S5000x128_S5000x128) (ix2 p k)
        * (broadcastTo S5000x128 (shapeCast S5000x1 x1 shapeCasts_S5000x1_S5000x1) broadcasts_S5000x1_S5000x128) (ix2 p k)
        + (broadcastTo S5000x128 (shapeCast S1x128 x2 shapeCasts_S128_S1x128) broadcasts_S1x128_S5000x128) (ix2 p k))
      (Ideal.ofBits .f32 0x00000000#32)
      * (broadcastTo S5000x128 (shapeCast S5000x1 x3 shapeCasts_S5000x1_S5000x1) broadcasts_S5000x1_S5000x128) (ix2 p k)) * x4 (ix2 k q) = _
  rw [shapeCast_self, shapeCast_self, shapeCast_self, Cert.LibColumn.broadcastTo_a1_ab_apply, Cert.LibColumn.broadcastTo_a1_ab_apply,
    broadcastTo_1b_ab_apply, shapeCast_a_1a_apply]

/-! ## The blocks the launch reads and writes -/

variable (V : (c : Dev nD) → (b : Ref sig .tc) → Buf (Elt Ideal) ((c : Thread nD τ).loc b))

/-- Point t takes row block t of the aggregated features, of both scale columns and of the result, and the whole
    bias vector and weight matrix. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blk1_0 (c : Dev nD) (t : Fin cfg1.N) (p : Fin 5000) (k : Fin 128) (i : S50000x128.Idx)
    (h0 : (i 0).val = t.val * 5000 + p.val) (h1 : (i 1).val = k.val) :
    (iblk1 V c 0 t : Vec Ideal S5000x128 .f32) (ix2 p k) = (V c main_v25 : S50000x128.Idx → EReal) i := by
  obtain ⟨e0, e1, -⟩ := idx_facts1 t
  unfold iblk1
  rw [View.read_apply]
  show V c main_v25 _ = V c main_v25 i
  refine congrArg (V c main_v25) (funext fun a => Fin.ext ?_)
  match a with
  | ⟨0, _⟩ => show win1_0.index t (0 : Fin 2) * 5000 + 1 * p.val = (i 0).val; rw [e0, h0]; omega
  | ⟨1, _⟩ => show win1_0.index t (1 : Fin 2) * 128 + 1 * k.val = (i 1).val; rw [e1, h1]; omega

theorem blk1_1 (c : Dev nD) (t : Fin cfg1.N) (p : Fin 5000) (i : S50000x1.Idx)
    (h0 : (i 0).val = t.val * 5000 + p.val) :
    (iblk1 V c 1 t : Vec Ideal S5000x1 .f32) (ix2 p (0 : Fin 1)) = (V c main_v14 : S50000x1.Idx → EReal) i := by
  obtain ⟨-, -, e0, e1, -⟩ := idx_facts1 t
  have hi1 : (i 1).val = 0 := by have h : (i 1).val < 1 := (i 1).isLt; omega
  unfold iblk1
  rw [View.read_apply]
  show V c main_v14 _ = V c main_v14 i
  refine congrArg (V c main_v14) (funext fun a => Fin.ext ?_)
  match a with
  | ⟨0, _⟩ => show win1_1.index t (0 : Fin 2) * 5000 + 1 * p.val = (i 0).val; rw [e0, h0]; omega
  | ⟨1, _⟩ => show win1_1.index t (1 : Fin 2) * 1 + 1 * 0 = (i 1).val; rw [e1, hi1]

theorem blk1_2 (c : Dev nD) (t : Fin cfg1.N) (k : Fin 128) :
    (iblk1 V c 2 t : Vec Ideal S128 .f32) (ix1 k) = (V c main_arg4 : S128.Idx → EReal) (ix1 k) := by
  obtain ⟨-, -, -, -, e0, -⟩ := idx_facts1 t
  unfold iblk1
  rw [View.read_apply]
  show V c main_arg4 _ = V c main_arg4 (ix1 k)
  refine congrArg (V c main_arg4) (funext fun a => Fin.ext ?_)
  match a with
  | ⟨0, _⟩ => show win1_2.index t (0 : Fin 1) * 128 + 1 * k.val = k.val; rw [e0]; omega

theorem blk1_3 (c : Dev nD) (t : Fin cfg1.N) (p : Fin 5000) (i : S50000x1.Idx)
    (h0 : (i 0).val = t.val * 5000 + p.val) :
    (iblk1 V c 3 t : Vec Ideal S5000x1 .f32) (ix2 p (0 : Fin 1)) = (V c main_v11 : S50000x1.Idx → EReal) i := by
  obtain ⟨-, -, -, -, -, e0, e1, -⟩ := idx_facts1 t
  have hi1 : (i 1).val = 0 := by have h : (i 1).val < 1 := (i 1).isLt; omega
  unfold iblk1
  rw [View.read_apply]
  show V c main_v11 _ = V c main_v11 i
  refine congrArg (V c main_v11) (funext fun a => Fin.ext ?_)
  match a with
  | ⟨0, _⟩ => show win1_3.index t (0 : Fin 2) * 5000 + 1 * p.val = (i 0).val; rw [e0, h0]; omega
  | ⟨1, _⟩ => show win1_3.index t (1 : Fin 2) * 1 + 1 * 0 = (i 1).val; rw [e1, hi1]

theorem blk1_4 (c : Dev nD) (t : Fin cfg1.N) (k : Fin 128) (q : Fin 32) :
    (iblk1 V c 4 t : Vec Ideal S128x32 .f32) (ix2 k q) = (V c main_arg5 : S128x32.Idx → EReal) (ix2 k q) := by
  obtain ⟨-, -, -, -, -, -, -, e0, e1, -⟩ := idx_facts1 t
  unfold iblk1
  rw [View.read_apply]
  show V c main_arg5 _ = V c main_arg5 (ix2 k q)
  refine congrArg (V c main_arg5) (funext fun a => Fin.ext ?_)
  match a with
  | ⟨0, _⟩ => show win1_4.index t (0 : Fin 2) * 128 + 1 * k.val = k.val; rw [e0]; omega
  | ⟨1, _⟩ => show win1_4.index t (1 : Fin 2) * 32 + 1 * q.val = q.val; rw [e1]; omega

/-- What point t stores at block coordinate y is the second projection at row 5000 t + y₀, column y₁. -/
theorem block1 (c : Dev nD) (t : Fin cfg1.N) (y : S5000x32.Idx) (i : S50000x32.Idx)
    (h0 : (i 0).val = t.val * 5000 + (y 0).val) (h1 : (i 1).val = (y 1).val) :
    k1_pay1 (F := Ideal) (iblk1 V c 0 t) (iblk1 V c 1 t) (iblk1 V c 2 t) (iblk1 V c 3 t) (iblk1 V c 4 t) y
      = Cert.Spec.proj2 (V c main_v25) (V c main_v14) (V c main_arg4) (V c main_v11) (V c main_arg5) i := by
  obtain ⟨p, q, rfl⟩ : ∃ (p : Fin 5000) (q : Fin 32), y = ix2 p q := ⟨y 0, y 1, eq_ix2 y⟩
  refine (pay1_apply (iblk1 V c 0 t) (iblk1 V c 1 t) (iblk1 V c 2 t) (iblk1 V c 3 t) (iblk1 V c 4 t) p q).trans ?_
  unfold Cert.Spec.proj2
  refine Finset.sum_congr rfl fun k _ => ?_
  have hq : (⟨(i 1).val, (i 1).isLt⟩ : Fin 32) = q := Fin.ext h1
  rw [blk1_0 V c t p k (ix2 (n0 := 50000) ⟨(i 0).val, (i 0).isLt⟩ k) h0 rfl,
    blk1_1 V c t p (ix2 (n0 := 50000) ⟨(i 0).val, (i 0).isLt⟩ (0 : Fin 1)) h0, blk1_2 V c t k,
    blk1_3 V c t p (ix2 (n0 := 50000) ⟨(i 0).val, (i 0).isLt⟩ (0 : Fin 1)) h0, blk1_4 V c t k q, hq]

/-- What point t writes back is block t of the second projection of the arrays the launch finds. -/
theorem flushed1 (c : Dev nD) (t : Fin cfg1.N) :
    (dat1 V c).flushed 5 t = ((cfg1.win 5).blk t).view.read (Elt Ideal)
      (Cert.Spec.proj2 (V c main_v25) (V c main_v14) (V c main_arg4) (V c main_v11) (V c main_arg5)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S5000x1) hz2, View.ld_unit_zero (S := S128) hz1, View.ld_unit_zero (S := S128x32) hz2]
  obtain ⟨-, -, -, -, -, -, -, -, -, e0, e1⟩ := idx_facts1 t
  funext y
  refine block1 V c t y _ ?_ ?_
  · show win1_5.index t (0 : Fin 2) * 5000 + 1 * (y 0).val = t.val * 5000 + (y 0).val; rw [e0]; omega
  · show win1_5.index t (1 : Fin 2) * 32 + 1 * (y 1).val = (y 1).val; rw [e1]; omega

theorem mem_blk1 (t : Fin cfg1.N) (i : S50000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v26).slice (win1_5.rect t)).set ↔ _
  rw [View.set_slice_whole, Rect.mem_set_unit]
  exact Iff.rfl

/-- Every row of the result lies in the block of the point row / 5000. -/
theorem cover1 (i : S50000x32.Idx) :
    ∃ t : Fin cfg1.N, (cfg1.win 5).flush t = true ∧ i ∈ ((cfg1.win 5).blk t).view.set := by
  have hi0 : (i 0).val < 50000 := (i 0).isLt
  have hi1 : (i 1).val < 32 := (i 1).isLt
  have hN : cfg1.N = 10 := N_1
  refine ⟨⟨(i 0).val / 5000, by rw [hN]; omega⟩, flush1_5 _, ?_⟩
  obtain ⟨-, -, -, -, -, -, -, -, -, e0, e1⟩ := idx_facts1 ⟨(i 0).val / 5000, by rw [hN]; omega⟩
  rw [mem_blk1]
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
  | ⟨1, _⟩ => show win1_5.index _ (1 : Fin 2) * 32 ≤ (i 1).val ∧ (i 1).val < win1_5.index _ (1 : Fin 2) * 32 + 32; rw [e1]; omega

/-- After the launch's write-backs the result array is the second projection of the arrays the launch found. -/
theorem final1 (c : Dev nD) :
    (dat1 V c).arrAt 5 cfg1.N = Cert.Spec.proj2 (V c main_v25) (V c main_v14) (V c main_arg4) (V c main_v11) (V c main_arg5) :=
  (dat1 V c).arrAt_eq_of_cover 5 _ (fun t _ => flushed1 V c t) cover1

end Cert.KernelIdeal.Hand1

end
-- ==== Proof.Region2.lean ====
/-
  The third launch (out = log_softmax(m₂ · d_in + b₂) along each row, ten row blocks of 5000 rows): the result array
  after its write-backs is `Spec.lsm` of the three arrays the launch finds, whatever those are.
  A row's maximum is the fold of max from −∞ over its 32 entries and its normaliser the sum of the 32 exponentials
  of the shifted entries; both stay inside the row, so block t of the output depends on rows
  5000 t … 5000 t + 4999 of the aggregated features and of the scale column and on the whole bias vector.
-/
import proofs.«157464_j57191784513886_1_alg».proof.Proof.Gen.KernelIdeal.Frame
import proofs.«157464_j57191784513886_1_alg».proof.Proof.Spec
import proofs.«157464_j57191784513886_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand2

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-! ## The body, cut at the logits -/

/-- The rows' maxima of a block of logits: the fold from −∞, compared once more with −∞. -/
def rowmaxB (v : FVec Ideal S5000x32 .f32) : FVec Ideal S5000 .f32 :=
  maximumf (broadcast S5000 (Scalar.ofBits .f32 0xFF800000#32))
    (multiReduction .maximumf [1] S5000 v 0xFF800000#32 reduces_S5000x32_S5000 (.inl rfl) rfl)

/-- The logits with their row's maximum taken off. -/
def shiftB (v : FVec Ideal S5000x32 .f32) : FVec Ideal S5000x32 .f32 :=
  subf v (broadcastTo S5000x32 (shapeCast S5000x1 (rowmaxB v) shapeCasts_S5000_S5000x1) broadcasts_S5000x1_S5000x32)

/-- The block's log-softmax from its logits. -/
def lsmB (v : FVec Ideal S5000x32 .f32) : FVec Ideal S5000x32 .f32 :=
  subf (shiftB v) (broadcastTo S5000x32 (log (shapeCast S5000x1
    (multiReduction .add [1] S5000 (exp (shiftB v)) 0x00000000#32 reduces_S5000x32_S5000 (.inl rfl) rfl) shapeCasts_S5000_S5000x1))
    broadcasts_S5000x1_S5000x32)

/-- The block's logits from the three loaded blocks. -/
def logitB (x0 : Vec Ideal S5000x32 .f32) (x1 : Vec Ideal S5000x1 .f32) (x2 : Vec Ideal S32 .f32) : FVec Ideal S5000x32 .f32 :=
  addf (mulf (shapeCast S5000x32 x0 shapeCasts_S5000x32_S5000x32)
      (broadcastTo S5000x32 (shapeCast S5000x1 x1 shapeCasts_S5000x1_S5000x1) broadcasts_S5000x1_S5000x32))
    (broadcastTo S5000x32 (shapeCast S1x32 x2 shapeCasts_S32_S1x32) broadcasts_S1x32_S5000x32)

/-- The stored value is the log-softmax of the logits. -/
theorem pay2_eq (x0 : Vec Ideal S5000x32 .f32) (x1 : Vec Ideal S5000x1 .f32) (x2 : Vec Ideal S32 .f32) :
    k2_pay1 (F := Ideal) x0 x1 x2 = lsmB (logitB x0 x1 x2) := rfl

theorem logitB_apply (x0 : Vec Ideal S5000x32 .f32) (x1 : Vec Ideal S5000x1 .f32) (x2 : Vec Ideal S32 .f32) (p : Fin 5000) (j : Fin 32) :
    logitB x0 x1 x2 (ix2 p j) = x0 (ix2 p j) * x1 (ix2 p (0 : Fin 1)) + x2 (ix1 j) := by
  unfold logitB
  show (shapeCast S5000x32 x0 shapeCasts_S5000x32_S5000x32) (ix2 p j)
      * (broadcastTo S5000x32 (shapeCast S5000x1 x1 shapeCasts_S5000x1_S5000x1) broadcasts_S5000x1_S5000x32) (ix2 p j)
      + (broadcastTo S5000x32 (shapeCast S1x32 x2 shapeCasts_S32_S1x32) broadcasts_S1x32_S5000x32) (ix2 p j) = _
  rw [shapeCast_self, shapeCast_self, Cert.LibColumn.broadcastTo_a1_ab_apply, broadcastTo_1b_ab_apply, shapeCast_a_1a_apply]

theorem rowmaxB_apply (v : FVec Ideal S5000x32 .f32) (p : Fin 5000) :
    rowmaxB v (ix1 p) = max (Ideal.ofBits .f32 0xFF800000#32)
      ((Finset.univ : Finset (Fin 32)).fold max (Ideal.ofBits .f32 0xFF800000#32) (fun j => v (ix2 p j))) := by
  unfold rowmaxB
  show max (Ideal.ofBits .f32 0xFF800000#32) (multiReduction .maximumf [1] S5000 v 0xFF800000#32 reduces_S5000x32_S5000 (.inl rfl) rfl (ix1 p)) = _
  refine congrArg (max (Ideal.ofBits .f32 0xFF800000#32)) ?_
  refine (Ideal.multiReduction_maximumf_single v 0xFF800000#32 reduces_S5000x32_S5000 (.inl rfl) rfl (ix1 p)).trans ?_
  refine congrArg (fun f => (Finset.univ : Finset (Fin 32)).fold max (Ideal.ofBits .f32 0xFF800000#32) f) (funext fun k => ?_)
  exact congrArg v (funext fun a => Fin.ext (by match a with | ⟨0, _⟩ => rfl | ⟨1, _⟩ => rfl))

theorem shiftB_apply (v : FVec Ideal S5000x32 .f32) (p : Fin 5000) (q : Fin 32) :
    shiftB v (ix2 p q) = v (ix2 p q) - rowmaxB v (ix1 p) := by
  unfold shiftB
  show v (ix2 p q) - (broadcastTo S5000x32 (shapeCast S5000x1 (rowmaxB v) shapeCasts_S5000_S5000x1) broadcasts_S5000x1_S5000x32) (ix2 p q) = _
  rw [Cert.LibColumn.broadcastTo_a1_ab_apply, Cert.LibColumn.shapeCast_a_a1_apply]

theorem lsmB_apply (v : FVec Ideal S5000x32 .f32) (p : Fin 5000) (q : Fin 32) :
    lsmB v (ix2 p q) = shiftB v (ix2 p q) - Ideal.log (∑ j : Fin 32, Ideal.exp (shiftB v (ix2 p j))) := by
  unfold lsmB
  show shiftB v (ix2 p q) - (broadcastTo S5000x32 (log (shapeCast S5000x1
    (multiReduction .add [1] S5000 (exp (shiftB v)) 0x00000000#32 reduces_S5000x32_S5000 (.inl rfl) rfl) shapeCasts_S5000_S5000x1))
    broadcasts_S5000x1_S5000x32) (ix2 p q) = _
  rw [Cert.LibColumn.broadcastTo_a1_ab_apply]
  show shiftB v (ix2 p q) - Ideal.log ((shapeCast S5000x1
    (multiReduction .add [1] S5000 (exp (shiftB v)) 0x00000000#32 reduces_S5000x32_S5000 (.inl rfl) rfl) shapeCasts_S5000_S5000x1) (ix2 p (0 : Fin 1))) = _
  rw [Cert.LibColumn.shapeCast_a_a1_apply]
  refine congrArg (fun z => shiftB v (ix2 p q) - Ideal.log z) ?_
  refine (Ideal.multiReduction_add_single (exp (shiftB v)) 0x00000000#32 reduces_S5000x32_S5000 (.inl rfl) rfl (ix1 p)).trans ?_
  refine Finset.sum_congr rfl fun k _ => ?_
  show Ideal.exp (shiftB v _) = _
  exact congrArg (fun z => Ideal.exp (shiftB v z)) (funext fun a => Fin.ext (by match a with | ⟨0, _⟩ => rfl | ⟨1, _⟩ => rfl))

/-- A block row whose logits are those of row P of the arrays has the log-softmax of that row. -/
theorem lsmB_spec (v : FVec Ideal S5000x32 .f32) (M : S50000x32.Idx → EReal) (Di : S50000x1.Idx → EReal) (B : S32.Idx → EReal)
    (p : Fin 5000) (P : Fin 50000) (hrow : ∀ j : Fin 32, v (ix2 p j) = Cert.Spec.logit M Di B P j) (q : Fin 32) :
    lsmB v (ix2 p q) = (Cert.Spec.logit M Di B P q - Cert.Spec.rowMax M Di B P)
      - Ideal.log (∑ j : Fin 32, Ideal.exp (Cert.Spec.logit M Di B P j - Cert.Spec.rowMax M Di B P)) := by
  have hmax : rowmaxB v (ix1 p) = Cert.Spec.rowMax M Di B P := by
    rw [rowmaxB_apply]; unfold Cert.Spec.rowMax
    exact congrArg (fun f => max (Ideal.ofBits .f32 0xFF800000#32) ((Finset.univ : Finset (Fin 32)).fold max (Ideal.ofBits .f32 0xFF800000#32) f)) (funext hrow)
  rw [lsmB_apply, shiftB_apply, hrow q, hmax]
  refine congrArg (fun z => (Cert.Spec.logit M Di B P q - Cert.Spec.rowMax M Di B P) - Ideal.log z) ?_
  refine Finset.sum_congr rfl fun j _ => ?_
  rw [shiftB_apply, hrow j, hmax]

/-! ## The blocks the launch reads and writes -/

variable (V : (c : Dev nD) → (b : Ref sig .tc) → Buf (Elt Ideal) ((c : Thread nD τ).loc b))

/-- Point t takes row block t of the aggregated features, of the scale column and of the result, and the whole bias vector. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

theorem blk2_0 (c : Dev nD) (t : Fin cfg2.N) (p : Fin 5000) (k : Fin 32) (i : S50000x32.Idx)
    (h0 : (i 0).val = t.val * 5000 + p.val) (h1 : (i 1).val = k.val) :
    (iblk2 V c 0 t : Vec Ideal S5000x32 .f32) (ix2 p k) = (V c main_v36 : S50000x32.Idx → EReal) i := by
  obtain ⟨e0, e1, -⟩ := idx_facts2 t
  unfold iblk2
  rw [View.read_apply]
  show V c main_v36 _ = V c main_v36 i
  refine congrArg (V c main_v36) (funext fun a => Fin.ext ?_)
  match a with
  | ⟨0, _⟩ => show win2_0.index t (0 : Fin 2) * 5000 + 1 * p.val = (i 0).val; rw [e0, h0]; omega
  | ⟨1, _⟩ => show win2_0.index t (1 : Fin 2) * 32 + 1 * k.val = (i 1).val; rw [e1, h1]; omega

theorem blk2_1 (c : Dev nD) (t : Fin cfg2.N) (p : Fin 5000) (i : S50000x1.Idx)
    (h0 : (i 0).val = t.val * 5000 + p.val) :
    (iblk2 V c 1 t : Vec Ideal S5000x1 .f32) (ix2 p (0 : Fin 1)) = (V c main_v14 : S50000x1.Idx → EReal) i := by
  obtain ⟨-, -, e0, e1, -⟩ := idx_facts2 t
  have hi1 : (i 1).val = 0 := by have h : (i 1).val < 1 := (i 1).isLt; omega
  unfold iblk2
  rw [View.read_apply]
  show V c main_v14 _ = V c main_v14 i
  refine congrArg (V c main_v14) (funext fun a => Fin.ext ?_)
  match a with
  | ⟨0, _⟩ => show win2_1.index t (0 : Fin 2) * 5000 + 1 * p.val = (i 0).val; rw [e0, h0]; omega
  | ⟨1, _⟩ => show win2_1.index t (1 : Fin 2) * 1 + 1 * 0 = (i 1).val; rw [e1, hi1]

theorem blk2_2 (c : Dev nD) (t : Fin cfg2.N) (k : Fin 32) :
    (iblk2 V c 2 t : Vec Ideal S32 .f32) (ix1 k) = (V c main_arg6 : S32.Idx → EReal) (ix1 k) := by
  obtain ⟨-, -, -, -, e0, -⟩ := idx_facts2 t
  unfold iblk2
  rw [View.read_apply]
  show V c main_arg6 _ = V c main_arg6 (ix1 k)
  refine congrArg (V c main_arg6) (funext fun a => Fin.ext ?_)
  match a with
  | ⟨0, _⟩ => show win2_2.index t (0 : Fin 1) * 32 + 1 * k.val = k.val; rw [e0]; omega

/-- What point t stores at block coordinate y is the log-softmax at row 5000 t + y₀, column y₁. -/
theorem block2 (c : Dev nD) (t : Fin cfg2.N) (y : S5000x32.Idx) (i : S50000x32.Idx)
    (h0 : (i 0).val = t.val * 5000 + (y 0).val) (h1 : (i 1).val = (y 1).val) :
    k2_pay1 (F := Ideal) (iblk2 V c 0 t) (iblk2 V c 1 t) (iblk2 V c 2 t) y
      = Cert.Spec.lsm (V c main_v36) (V c main_v14) (V c main_arg6) i := by
  obtain ⟨p, q, rfl⟩ : ∃ (p : Fin 5000) (q : Fin 32), y = ix2 p q := ⟨y 0, y 1, eq_ix2 y⟩
  have hq : (⟨(i 1).val, (i 1).isLt⟩ : Fin 32) = q := Fin.ext h1
  refine (congrFun (pay2_eq (iblk2 V c 0 t) (iblk2 V c 1 t) (iblk2 V c 2 t)) (ix2 p q)).trans ?_
  refine (lsmB_spec (logitB (iblk2 V c 0 t) (iblk2 V c 1 t) (iblk2 V c 2 t)) (V c main_v36) (V c main_v14) (V c main_arg6)
    p ⟨(i 0).val, (i 0).isLt⟩ (fun j => ?_) q).trans ?_
  · refine (logitB_apply (iblk2 V c 0 t) (iblk2 V c 1 t) (iblk2 V c 2 t) p j).trans ?_
    unfold Cert.Spec.logit
    rw [blk2_0 V c t p j (ix2 (n0 := 50000) ⟨(i 0).val, (i 0).isLt⟩ j) h0 rfl,
      blk2_1 V c t p (ix2 (n0 := 50000) ⟨(i 0).val, (i 0).isLt⟩ (0 : Fin 1)) h0, blk2_2 V c t j]
  · unfold Cert.Spec.lsm
    rw [hq]

/-- What point t writes back is block t of the log-softmax of the arrays the launch finds. -/
theorem flushed2 (c : Dev nD) (t : Fin cfg2.N) :
    (dat2 V c).flushed 3 t = ((cfg2.win 3).blk t).view.read (Elt Ideal)
      (Cert.Spec.lsm (V c main_v36) (V c main_v14) (V c main_arg6)) := by
  show (cfg2.win 3).cut (grid2.coords t) ((dat2 V c).after 3 t) = _
  rw [after2_3]
  unfold out2_3
  rw [View.canon_unit_zero hz2]
  simp only [View.ld_unit_zero (S := S5000x32) hz2, View.ld_unit_zero (S := S5000x1) hz2, View.ld_unit_zero (S := S32) hz1]
  obtain ⟨-, -, -, -, -, e0, e1⟩ := idx_facts2 t
  funext y
  refine block2 V c t y _ ?_ ?_
  · show win2_3.index t (0 : Fin 2) * 5000 + 1 * (y 0).val = t.val * 5000 + (y 0).val; rw [e0]; omega
  · show win2_3.index t (1 : Fin 2) * 32 + 1 * (y 1).val = (y 1).val; rw [e1]; omega

theorem mem_blk2 (t : Fin cfg2.N) (i : S50000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v37).slice (win2_3.rect t)).set ↔ _
  rw [View.set_slice_whole, Rect.mem_set_unit]
  exact Iff.rfl

/-- Every row of the result lies in the block of the point row / 5000. -/
theorem cover2 (i : S50000x32.Idx) :
    ∃ t : Fin cfg2.N, (cfg2.win 3).flush t = true ∧ i ∈ ((cfg2.win 3).blk t).view.set := by
  have hi0 : (i 0).val < 50000 := (i 0).isLt
  have hi1 : (i 1).val < 32 := (i 1).isLt
  have hN : cfg2.N = 10 := N_2
  refine ⟨⟨(i 0).val / 5000, by rw [hN]; omega⟩, flush2_3 _, ?_⟩
  obtain ⟨-, -, -, -, -, e0, e1⟩ := idx_facts2 ⟨(i 0).val / 5000, by rw [hN]; omega⟩
  rw [mem_blk2]
  intro a
  match a with
  | ⟨0, _⟩ => show win2_3.index _ (0 : Fin 2) * 5000 ≤ (i 0).val ∧ (i 0).val < win2_3.index _ (0 : Fin 2) * 5000 + 5000; rw [e0]; show (i 0).val / 5000 * 5000 ≤ (i 0).val ∧ (i 0).val < (i 0).val / 5000 * 5000 + 5000; omega
  | ⟨1, _⟩ => show win2_3.index _ (1 : Fin 2) * 32 ≤ (i 1).val ∧ (i 1).val < win2_3.index _ (1 : Fin 2) * 32 + 32; rw [e1]; omega

/-- After the launch's write-backs the result array is the log-softmax of the arrays the launch found. -/
theorem final2 (c : Dev nD) :
    (dat2 V c).arrAt 3 cfg2.N = Cert.Spec.lsm (V c main_v36) (V c main_v14) (V c main_arg6) :=
  (dat2 V c).arrAt_eq_of_cover 3 _ (fun t _ => flushed2 V c t) cover2

end Cert.KernelIdeal.Hand2

end
-- ==== Proof.RefStages.lean ====
/-
  The reference's three dense stages are the same three functions of whole arrays (`Spec.proj1`, `Spec.proj2`,
  `Spec.lsm`): its scaled product with the first weight matrix, its normalise-bias-rectify-scale product with the
  second, and its log-softmax, each read index by index from the operations' stages. The host's row maximum is
  the fold of max from −∞ over the row and its row sum the initial zero plus the sum over the row.
-/
import proofs.«157464_j57191784513886_1_alg».proof.Proof.RefRead
import proofs.«157464_j57191784513886_1_alg».proof.Proof.Spec
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen Cert.ReferenceIdeal.ReadP
open Idealize.ShloMosaic Idealize.ShloMosaic.TcCoe Idealize.SL.Sem Idealize.ShloMosaic.ValueIdx

variable (x0 : (⟨S50000x256, .f32⟩ : BufTy).Contents (Elt Ideal)) (x1 x2 : (⟨S800000, .i32⟩ : BufTy).Contents (Elt Ideal))
  (x3 : (⟨S256x128, .f32⟩ : BufTy).Contents (Elt Ideal)) (x4 : (⟨S128, .f32⟩ : BufTy).Contents (Elt Ideal))
  (x5 : (⟨S128x32, .f32⟩ : BufTy).Contents (Elt Ideal)) (x6 : (⟨S32, .f32⟩ : BufTy).Contents (Elt Ideal))

/-- The first layer's projection: the feature rows scaled by the source-degree column, times the first weight matrix. -/
theorem ref_proj1 : val_main_v14 (F := Ideal) x0 x1 x3 = Cert.Spec.proj1 x0 (val_main_v11 (F := Ideal) x1) x3 := by
  funext i
  rw [val_main_v14_apply]
  unfold Cert.Spec.proj1
  refine Finset.sum_congr rfl fun k _ => ?_
  rw [val_main_v13_apply, val_main_v12_apply]
  have e1 : lidx_main_v14 i k = ix2 (n0 := 50000) ⟨(i 0).val, (i 0).isLt⟩ k :=
    funext fun a => Fin.ext (by match a with | ⟨0, _⟩ => rfl | ⟨1, _⟩ => rfl)
  have e2 : idx_main_v12 (lidx_main_v14 i k) = ix2 (n0 := 50000) ⟨(i 0).val, (i 0).isLt⟩ (0 : Fin 1) :=
    funext fun a => Fin.ext (by match a with | ⟨0, _⟩ => rfl | ⟨1, _⟩ => rfl)
  have e3 : ridx_main_v14 i k = ix2 k (⟨(i 1).val, (i 1).isLt⟩ : Fin 128) :=
    funext fun a => Fin.ext (by match a with | ⟨0, _⟩ => rfl | ⟨1, _⟩ => rfl)
  rw [e2, e1, e3]
  rfl

/-- The second layer's projection: the aggregated rows normalised, biased, rectified and scaled, times the second weight matrix. -/
theorem ref_proj2 : val_main_v48 (F := Ideal) x0 x1 x2 x3 x4 x5
    = Cert.Spec.proj2 (val_main_v24 (F := Ideal) x0 x1 x2 x3) (val_main_v27 (F := Ideal) x2) x4 (val_main_v45 (F := Ideal) x1) x5 := by
  funext i
  rw [val_main_v48_apply]
  unfold Cert.Spec.proj2
  refine Finset.sum_congr rfl fun k _ => ?_
  rw [val_main_v47_apply, val_main_v33_apply, val_main_v32_apply, val_main_v29_apply, val_main_v28_apply, val_main_v31_apply,
    val_main_v30_apply, val_main_v46_apply, val_main_call2_v0_apply, val_main_call2_cst_apply]
  have e1 : lidx_main_v48 i k = ix2 (n0 := 50000) ⟨(i 0).val, (i 0).isLt⟩ k :=
    funext fun a => Fin.ext (by match a with | ⟨0, _⟩ => rfl | ⟨1, _⟩ => rfl)
  have e2 : idx_main_v28 (lidx_main_v48 i k) = ix2 (n0 := 50000) ⟨(i 0).val, (i 0).isLt⟩ (0 : Fin 1) :=
    funext fun a => Fin.ext (by match a with | ⟨0, _⟩ => rfl | ⟨1, _⟩ => rfl)
  have e3 : idx_main_v30 (idx_main_v31 (lidx_main_v48 i k)) = ix1 k :=
    funext fun a => Fin.ext (by match a with | ⟨0, _⟩ => rfl)
  have e4 : idx_main_v46 (lidx_main_v48 i k) = ix2 (n0 := 50000) ⟨(i 0).val, (i 0).isLt⟩ (0 : Fin 1) :=
    funext fun a => Fin.ext (by match a with | ⟨0, _⟩ => rfl | ⟨1, _⟩ => rfl)
  have e5 : ridx_main_v48 i k = ix2 k (⟨(i 1).val, (i 1).isLt⟩ : Fin 32) :=
    funext fun a => Fin.ext (by match a with | ⟨0, _⟩ => rfl | ⟨1, _⟩ => rfl)
  rw [e2, e3, e4, e1, e5]
  rfl

/-- The reference computes each degree column twice, once per layer: the two copies are one term. -/
theorem dup_out : val_main_v45 (F := Ideal) x1 = val_main_v11 (F := Ideal) x1 := rfl
theorem dup_in : val_main_v61 (F := Ideal) x2 = val_main_v27 (F := Ideal) x2 := rfl

/-! ## The log-softmax -/

/-- The reference's logits are the aggregated rows normalised by the destination-degree column and biased. -/
theorem ref_logit (j : S50000x32.Idx) : val_main_v66 (F := Ideal) x0 x1 x2 x3 x4 x5 x6 j
    = Cert.Spec.logit (val_main_v58 (F := Ideal) x0 x1 x2 x3 x4 x5) (val_main_v61 (F := Ideal) x2) x6
        ⟨(j 0).val, (j 0).isLt⟩ ⟨(j 1).val, (j 1).isLt⟩ := by
  rw [val_main_v66_apply, val_main_v63_apply, val_main_v62_apply, val_main_v65_apply, val_main_v64_apply]
  unfold Cert.Spec.logit
  have e1 : j = ix2 (n0 := 50000) (n1 := 32) ⟨(j 0).val, (j 0).isLt⟩ ⟨(j 1).val, (j 1).isLt⟩ :=
    funext fun a => Fin.ext (by match a with | ⟨0, _⟩ => rfl | ⟨1, _⟩ => rfl)
  have e2 : idx_main_v62 j = ix2 (n0 := 50000) ⟨(j 0).val, (j 0).isLt⟩ (0 : Fin 1) :=
    funext fun a => Fin.ext (by match a with | ⟨0, _⟩ => rfl | ⟨1, _⟩ => rfl)
  have e3 : idx_main_v64 (idx_main_v65 j) = ix1 (⟨(j 1).val, (j 1).isLt⟩ : Fin 32) :=
    funext fun a => Fin.ext (by match a with | ⟨0, _⟩ => rfl)
  rw [e2, e3]
  refine congrArg₂ (fun a b : EReal => a * val_main_v61 (F := Ideal) x2 (ix2 (n0 := 50000) ⟨(j 0).val, (j 0).isLt⟩ (0 : Fin 1)) + b) ?_ rfl
  exact congrArg (val_main_v58 (F := Ideal) x0 x1 x2 x3 x4 x5) e1

/-- The host's maximum over a row, read at the row: the fold of max from the initial value over the row's 32 entries. -/
theorem reduce_max_row (v : (⟨S50000x32, .f32⟩ : BufTy).Contents (Elt Ideal)) (init : (⟨S_, .f32⟩ : BufTy).Contents (Elt Ideal)) (P : Fin 50000) :
    Host.reduce (FloatOps.maximumf (F := Ideal) (φ := .f32)) v init reducesTo_S50000x32_S50000_d1 h_S_ (ix1 P)
      = (Finset.univ : Finset (Fin 32)).fold max (init (Shape.Idx.first h_S_)) (fun k => v (ix2 P k)) := by
  rw [Host.reduce_eq_fold_single (FloatOps.maximumf (F := Ideal) (φ := .f32)) v init reducesTo_S50000x32_S50000_d1 (by decide) h_S_ (ix1 P)]
  refine congrArg (fun f => (Finset.univ : Finset (Fin 32)).fold max (init (Shape.Idx.first h_S_)) f) (funext fun k => ?_)
  exact congrArg v (funext fun a => Fin.ext (by match a with | ⟨0, _⟩ => rfl | ⟨1, _⟩ => rfl))

/-- The reference's row maximum is the fold of max from −∞ over the row's logits, compared once more with −∞. -/
theorem ref_rowMax (P : Fin 50000) : val_main_call5_v2 (F := Ideal) x0 x1 x2 x3 x4 x5 x6 (ix1 P)
    = Cert.Spec.rowMax (val_main_v58 (F := Ideal) x0 x1 x2 x3 x4 x5) (val_main_v61 (F := Ideal) x2) x6 P := by
  rw [val_main_call5_v2_apply, val_main_call5_v1_apply, val_main_call5_cst_0_apply]
  unfold Cert.Spec.rowMax val_main_call5_v0
  rw [reduce_max_row]
  have hf : (fun k : Fin 32 => val_main_v66 (F := Ideal) x0 x1 x2 x3 x4 x5 x6 (ix2 P k))
      = fun j => Cert.Spec.logit (val_main_v58 (F := Ideal) x0 x1 x2 x3 x4 x5) (val_main_v61 (F := Ideal) x2) x6 P j :=
    funext fun k => ref_logit x0 x1 x2 x3 x4 x5 x6 (ix2 P k)
  rw [hf]
  rfl

/-- The reference's result is the log-softmax of those logits. -/
theorem ref_lsm : val_main_v67 (F := Ideal) x0 x1 x2 x3 x4 x5 x6
    = Cert.Spec.lsm (val_main_v58 (F := Ideal) x0 x1 x2 x3 x4 x5) (val_main_v61 (F := Ideal) x2) x6 := by
  funext i
  have hsh : ∀ j : S50000x32.Idx, (j 0).val = (i 0).val → val_main_call5_v5 (F := Ideal) x0 x1 x2 x3 x4 x5 x6 j
      = Cert.Spec.logit (val_main_v58 (F := Ideal) x0 x1 x2 x3 x4 x5) (val_main_v61 (F := Ideal) x2) x6 ⟨(i 0).val, (i 0).isLt⟩ ⟨(j 1).val, (j 1).isLt⟩
        - Cert.Spec.rowMax (val_main_v58 (F := Ideal) x0 x1 x2 x3 x4 x5) (val_main_v61 (F := Ideal) x2) x6 ⟨(i 0).val, (i 0).isLt⟩ := by
    intro j hj
    have eP : (⟨(j 0).val, (j 0).isLt⟩ : Fin 50000) = ⟨(i 0).val, (i 0).isLt⟩ := Fin.ext hj
    rw [val_main_call5_v5_apply, val_main_call5_v4_apply, val_main_call5_v3_apply, ref_logit, eP]
    have e : idx_main_call5_v3 (idx_main_call5_v4 j) = ix1 (⟨(i 0).val, (i 0).isLt⟩ : Fin 50000) :=
      funext fun a => Fin.ext (by match a with | ⟨0, _⟩ => exact hj)
    rw [e, ref_rowMax]
    rfl
  rw [val_main_v67_apply, val_main_call5_v10_apply, val_main_call5_v9_apply, val_main_call5_v8_apply, val_main_call5_v7_apply,
    val_main_call5_cst_1_apply, hsh i rfl]
  unfold Cert.Spec.lsm
  rw [Ideal.subf_def, Ideal.hostUnary_log_def, Ideal.ofBits_def, Ideal.ofBits_zero_f32, zero_add]
  refine congrArg₂ (fun a b : EReal => a - b) rfl (congrArg Ideal.log (Finset.sum_congr rfl fun k _ => ?_))
  rw [val_main_call5_v6_apply, Ideal.hostUnary_exp_def, hsh (idx_main_call5_v7 (idx_main_call5_v8 (idx_main_call5_v10 i)) k) rfl]

end Cert.ReferenceIdeal.Hand

end
-- ==== Proof.Bridge.lean ====
/-
  The idealized kernel's result array is the reference's result term of the same arguments: the three launches
  compute `Spec.proj1`, `Spec.proj2` and `Spec.lsm` of what they find, the reference's three dense stages are the
  same functions, and the degree columns and the two aggregations between them are shared operation by operation.
-/
import proofs.«157464_j57191784513886_1_alg».proof.Proof.KernelHost
import proofs.«157464_j57191784513886_1_alg».proof.Proof.Region0
import proofs.«157464_j57191784513886_1_alg».proof.Proof.Region1
import proofs.«157464_j57191784513886_1_alg».proof.Proof.Region2
import proofs.«157464_j57191784513886_1_alg».proof.Proof.RefStages

set_option maxRecDepth 16384

noncomputable section

namespace Cert.KernelIdeal.Bridge

open Cert.KernelIdeal Cert.KernelIdeal.Gen Cert.KernelIdeal.HandH
open Idealize.ShloMosaic Idealize.ShloMosaic.TcCoe Idealize.SL.Sem

variable (m : (ℓ : Loc nD τ sig) → Buf (Elt Ideal) ℓ) (ρ : Dev nD → PrngReg) (c : Dev nD)

set_option maxHeartbeats 2000000 in
/-- After the first launch its result array holds the reference's first projection. -/
theorem stage0 : W6 m ρ c (Proc.devRef .tc main_v15) = Cert.ReferenceIdeal.ReadP.val_main_v14 (F := Ideal) (m ((c : Thread nD τ).loc main_arg0)) (m ((c : Thread nD τ).loc main_arg1)) (m ((c : Thread nD τ).loc main_arg3)) := by
  refine (W6_arr m ρ c 3).trans ((Cert.KernelIdeal.Hand.final0 (V5 m ρ) c).trans ?_)
  rw [V5_v11 m ρ c, V5_arg0 m ρ c, V5_arg3 m ρ c]
  exact (Cert.ReferenceIdeal.Hand.ref_proj1 _ _ _).symm

set_option maxHeartbeats 2000000 in
/-- After the second launch its result array holds the reference's second projection. -/
theorem stage1 : W8 m ρ c (Proc.devRef .tc main_v26) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 5).trans ((Cert.KernelIdeal.Hand1.final1 (V7 m ρ) c).trans ?_)
  rw [V7_v25 m ρ c (stage0 m ρ c), V7_v14 m ρ c, V7_arg4 m ρ c, V7_v11 m ρ c, V7_arg5 m ρ c, ← Cert.ReferenceIdeal.Hand.dup_out]
  exact (Cert.ReferenceIdeal.Hand.ref_proj2 _ _ _ _ _ _).symm

set_option maxHeartbeats 2000000 in
/-- After the third launch the result array holds the reference's result. -/
theorem result_eq : V10 m ρ c main_v37 = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 3).trans ((Cert.KernelIdeal.Hand2.final2 (V9 m ρ) c).trans ?_)
  rw [V9_v36 m ρ c (stage1 m ρ c), V9_v14 m ρ c, V9_arg6 m ρ c, ← Cert.ReferenceIdeal.Hand.dup_in]
  exact (Cert.ReferenceIdeal.Hand.ref_lsm _ _ _ _ _ _ _).symm

end Cert.KernelIdeal.Bridge

end
-- ==== Proof.lean ====
/-
  The certificate of the two-layer graph convolution (N = 50000 nodes, E = 800000 edges, feature widths 256 → 128 → 32).
  Over the extended reals the kernel's program and the reference compute one function of the same seven arrays:
    out = log_softmax(A (max(A ((x · d_out) W₁) · d_in + b₁, 0) · d_out) W₂) · d_in + b₂),
  where A gathers rows by source node and scatter-adds them by destination node, and d_out, d_in are the clipped degree
  counts raised to −1/2. The kernel's three launches compute the two projections and the log-softmax block by
  block (ten blocks of 5000 rows, each block's product into a zero accumulator); the reference computes them with whole-array operations;
  a block's matrix product and the whole matrix product are the same sum over the contracted axis, a row's
  maximum and sum stay inside the row, and the degree columns and the aggregations are the same host operations on
  both sides. No law beyond reading each stage index by index is used, so the finiteness of the inputs is never opened.
  The three frames are the generated ones (the reference's is its run with the result dropped), and the kernel's
  idealization rewrote nothing.
-/
import proofs.«157464_j57191784513886_1_alg».proof.Defs
import proofs.«157464_j57191784513886_1_alg».proof.Proof.Gen.Kernel
import proofs.«157464_j57191784513886_1_alg».proof.Proof.Gen.Kernel.Skeleton
import proofs.«157464_j57191784513886_1_alg».proof.Proof.Gen.Kernel.Launch
import proofs.«157464_j57191784513886_1_alg».proof.Proof.Gen.Kernel.Points
import proofs.«157464_j57191784513886_1_alg».proof.Proof.Gen.Kernel.Frame
import proofs.«157464_j57191784513886_1_alg».proof.Proof.Gen.KernelIdeal
import proofs.«157464_j57191784513886_1_alg».proof.Proof.Gen.KernelIdeal.Skeleton
import proofs.«157464_j57191784513886_1_alg».proof.Proof.Gen.KernelIdeal.Launch
import proofs.«157464_j57191784513886_1_alg».proof.Proof.Gen.KernelIdeal.Points
import proofs.«157464_j57191784513886_1_alg».proof.Proof.Gen.KernelIdeal.Frame
import proofs.«157464_j57191784513886_1_alg».proof.Proof.Gen.ReferenceIdeal
import proofs.«157464_j57191784513886_1_alg».proof.Proof.Gen.Pre_finite_inputs
import proofs.«157464_j57191784513886_1_alg».proof.Proof.KernelRun
import proofs.«157464_j57191784513886_1_alg».proof.Proof.RefRun
import proofs.«157464_j57191784513886_1_alg».proof.Proof.RefRead
import proofs.«157464_j57191784513886_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the seven arguments both programs run to the end, and the kernel's result array —
    what its third launch's write-backs leave — is the reference's result term of those arguments. -/
theorem algebraic : Cert.algebraic_KernelIdeal_ReferenceIdeal := by
  intro m ρ m' ρ' _ hagree
  refine ⟨fun c => Cert.KernelIdeal.Gen.V10 m ρ c Cert.KernelIdeal.main_v37, Cert.KernelIdeal.Hand.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v67_eq, (hagree c).1, (hagree c).2.1, (hagree c).2.2.1, (hagree c).2.2.2.1,
    (hagree c).2.2.2.2.1, (hagree c).2.2.2.2.2.1, (hagree c).2.2.2.2.2.2]
  exact (Cert.KernelIdeal.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
